-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S65536x1024 : Shape := ⟨2, ![65536, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S_ : Shape := ⟨0, ![]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .f32⟩
  | .hbm, ⟨3, _⟩ => ⟨S_, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S65536x1024 : S_.BroadcastsInDim S65536x1024 (![] : Fin 0 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.SigmoidSign.lean ====
/-
  One element of the update, on the extended reals.

  Both programs send an entry x of the big array and the logarithm l of its column's prime to

      x − c₀.₀₁ · ((((s · (c₁ − s)) · c₁₀₀) · sgn x) · l),      s = σ(c₁₀₀ · (|x| − c₀.₁)),

  the constants being the values of four single-precision words, the same words in both programs, so that none of
  them is ever evaluated except the word of 1 (and, for the sign, the words of 0 and −1). They spell two of its parts
  differently:

  * the sigmoid σ z. One program applies the logistic function, the other writes 1 / (1 + e^(−z)) with the
    extended reals' division. The logistic function of the extended reals IS that quotient (with its limits 0 at −∞
    and 1 at +∞ read off the same formula), so the two agree at every z, infinite ones included, once the word
    0x3F800000 is known to be the number 1.
  * the sign sgn x. One program applies the sign function (−1, 0, 1 by the order; −1 at −∞ and 1 at +∞). The other
    selects: if |x| > 0 then (−1 if x < 0, else 1) else x itself. Where |x| > 0 fails, x is 0, and so is its sign;
    where it holds, x is negative or positive (or infinite) and the inner choice is the sign. So they agree at every
    extended real.

  Nothing here needs x or l to be finite: the only laws used are these two pointwise identities.
-/
import Idealize.ShloMosaic.PureOps.Ideal
import Idealize.ShloMosaic.PureOps.Ideal.Laws

noncomputable section

namespace Cert.SigmoidSign

open Idealize.ShloMosaic

/-! ## The constants: six single-precision words read as extended reals -/

abbrev cTenth : EReal := Ideal.ofBits .f32 0x3DCCCCCD#32
abbrev cHundred : EReal := Ideal.ofBits .f32 0x42C80000#32
abbrev cHundredth : EReal := Ideal.ofBits .f32 0x3C23D70A#32
abbrev cOne : EReal := Ideal.ofBits .f32 0x3F800000#32
abbrev cNegOne : EReal := Ideal.ofBits .f32 0xBF800000#32
abbrev cZero : EReal := Ideal.ofBits .f32 0x00000000#32

/-- The word 0x3F800000 is the number 1. -/
theorem cOne_eq : cOne = 1 := by
  simp [Ideal.ofBits, Ideal.ieee, -EReal.coe_mul]; norm_num

/-- The word 0xBF800000 is the number −1. -/
theorem cNegOne_eq : cNegOne = -1 := by
  simp [Ideal.ofBits, Ideal.ieee, -EReal.coe_mul]; norm_num

/-- The word 0x00000000 is the number 0. -/
theorem cZero_eq : cZero = 0 := Ideal.ofBits_zero_f32

/-! ## The sign, by selection -/

/-- A selection on a decided comparison is an if-then-else on the comparison. -/
theorem select_ofBool {α : Type} (p : Prop) [Decidable p] (a b : α) :
    Scalar.select (BitVec.ofBool (decide p)) a b = if p then a else b := by
  by_cases h : p <;> simp [Scalar.select, h]

/-- The sign as the selecting program spells it: x's own value where |x| > 0 fails, else −1 or 1 by x < 0. -/
def selSign (x : EReal) : EReal :=
  Scalar.select (Ideal.cmp .ogt (max x (-x)) cZero) (Scalar.select (Ideal.cmp .olt x cZero) cNegOne cOne) x

theorem selSign_eq_ite (x : EReal) :
    selSign x = if 0 < max x (-x) then (if x < 0 then -1 else 1) else x := by
  unfold selSign
  rw [cZero_eq, cOne_eq, cNegOne_eq]
  show Scalar.select (BitVec.ofBool (decide (0 < max x (-x)))) (Scalar.select (BitVec.ofBool (decide (x < 0))) (-1) 1) x = _
  rw [select_ofBool, select_ofBool]

/-- The selected sign is the sign function, at every extended real. -/
theorem selSign_eq (x : EReal) : selSign x = Ideal.sign x := by
  rw [selSign_eq_ite]
  induction x using EReal.rec with
  | bot => simp
  | top => simp
  | coe r =>
    rw [Ideal.sign_coe]
    rcases lt_trichotomy r 0 with h | h | h
    · have h1 : ((r : ℝ) : EReal) < 0 := by exact_mod_cast h
      have h2 : (0 : EReal) < max (r : EReal) (-(r : EReal)) := by
        apply lt_max_of_lt_right
        rw [← EReal.coe_neg]; exact_mod_cast neg_pos.mpr h
      rw [if_pos h2, if_pos h1, sign_neg h]; simp
    · subst h; simp
    · have h1 : ¬ ((r : ℝ) : EReal) < 0 := by
        rw [not_lt]; exact_mod_cast h.le
      have h2 : (0 : EReal) < max (r : EReal) (-(r : EReal)) := by
        apply lt_max_of_lt_left; exact_mod_cast h
      rw [if_pos h2, if_neg h1, sign_pos h]; simp

/-! ## The sigmoid, by its quotient -/

/-- 1 / (1 + e^(−z)), the 1s being the word 0x3F800000, is the logistic function of z. -/
theorem quotient_eq_logistic (z : EReal) : Ideal.div cOne (cOne + Ideal.exp (-z)) = Ideal.logistic z := by
  rw [cOne_eq]; rfl

/-! ## One element of the update -/

/-- The sigmoid's argument c₁₀₀ · (|x| − c₀.₁), the absolute value being max x (−x). -/
def arg (x : EReal) : EReal := cHundred * (max x (-x) - cTenth)

/-- One element of the result from the entry x and the logarithm l, in the spelling with the logistic function and
    the selected sign. -/
def upd (x l : EReal) : EReal :=
  x - cHundredth * ((((Ideal.logistic (arg x) * (cOne - Ideal.logistic (arg x))) * cHundred) * selSign x) * l)

/-- The spelling with the quotient and the sign function is the same number. -/
theorem upd_of_quotient_sign (x l : EReal) :
    x - cHundredth * ((((Ideal.div cOne (cOne + Ideal.exp (-(arg x))) * (cOne - Ideal.div cOne (cOne + Ideal.exp (-(arg x))))) * cHundred)
        * Ideal.sign x) * l) = upd x l := by
  unfold upd
  rw [quotient_eq_logistic, selSign_eq]

end Cert.SigmoidSign

end
-- ==== Proof.Update.lean ====
/-
  The whole result as one function of the two argument arrays.

  x is the array of 65536 rows and 1024 columns, p the 1024 primes. Entry (r, c) of the result depends on entry (r, c)
  of x and on the logarithm of p's entry c only: it is the one-element update of those two numbers. Both programs
  take the logarithm of p once, before anything else, with the same host logarithm, and then spread it over the rows
  (one through a reshape to a 1 × 1024 row that every block of rows reads whole and broadcasts over its rows, the
  other through two broadcasts); so the logarithm appears here applied to p's entry itself.
-/
import Idealize.ShloMosaic.Lib.ValueIdx
import proofs.«158199_j34016140985088_1_alg».proof.Proof.SigmoidSign

noncomputable section

namespace Cert.SigmoidSign

open Idealize.ShloMosaic Idealize.ShloMosaic.ValueIdx

/-- Entry i = (r, c) of the result: the update of x's entry i with the logarithm of the c-th prime. -/
def G (x : (⟨2, ![65536, 1024]⟩ : Shape).Idx → EReal) (p : (⟨1, ![1024]⟩ : Shape).Idx → EReal) :
    (⟨2, ![65536, 1024]⟩ : Shape).Idx → EReal :=
  fun i => upd (x i) (Ideal.log (p (ix1 (i 1))))

end Cert.SigmoidSign

end
-- ==== Proof.RefUpdate.lean ====
/-
  The reference computes the whole-array update.

  Its 32 host operations are all elementwise except the three broadcasts of scalars' kind (a constant spread over the
  array: every entry is the constant) and the two that spread the logarithms of the primes — first to a 1 × 1024 row,
  then over the 65536 rows — so that entry (r, c) of the spread array is the logarithm of prime c. Read at one entry
  the chain is therefore the one-element update in the spelling with the quotient 1 / (1 + e^(−z)) and the sign
  function, which is the same number as the other spelling.
-/
import proofs.«158199_j34016140985088_1_alg».proof.Proof.Gen.ReferenceIdeal.Read
import proofs.«158199_j34016140985088_1_alg».proof.Proof.Update

noncomputable section

namespace Cert.ReferenceIdeal.RefValue

open Cert.ReferenceIdeal Cert.ReferenceIdeal.Read Cert.SigmoidSign
open Idealize.ShloMosaic Idealize.ShloMosaic.ValueIdx

/-- Through the two spreading operations entry (r, c) reads the flat array of logarithms at c. -/
theorem spread_idx (i : S65536x1024.Idx) : idx_main_v19 (idx_main_v20 i) = ix1 (i 1) :=
  funext fun a => by match a with | ⟨0, _⟩ => rfl

/-- The reference's last stage, as a function of its two arguments, is the whole-array update. -/
theorem val_eq_update (x0 : (⟨S65536x1024, .f32⟩ : BufTy).Contents (Elt Ideal)) (x1 : (⟨S1024, .f32⟩ : BufTy).Contents (Elt Ideal)) :
    val_main_v24 (F := Ideal) x0 x1 = G x0 x1 := by
  funext i
  simp only [val_main_v24_apply, val_main_v23_apply, val_main_v22_apply, val_main_cst_5_apply, val_main_v21_apply,
    val_main_v20_apply, val_main_v19_apply, val_main_v18_apply, val_main_v17_apply, val_main_v16_apply,
    val_main_v15_apply, val_main_v14_apply, val_main_cst_4_apply, val_main_v13_apply, val_main_v12_apply,
    val_main_v11_apply, val_main_cst_3_apply, val_main_v10_apply, val_main_v9_apply, val_main_cst_2_apply,
    val_main_v8_apply, val_main_v7_apply, val_main_cst_1_apply, val_main_v6_apply, val_main_v5_apply,
    val_main_v4_apply, val_main_v3_apply, val_main_cst_0_apply, val_main_v2_apply, val_main_v1_apply,
    val_main_cst_apply, val_main_v0_apply, spread_idx]
  exact upd_of_quotient_sign (x0 i) (Ideal.log (x1 (ix1 (i 1))))

end Cert.ReferenceIdeal.RefValue

end
-- ==== Proof.KernelBlock.lean ====
/-
  What one grid point of the kernel writes back, as entries of the argument arrays.

  The grid has 64 points. Point t stages rows 1024·t … 1024·t + 1023 of x (all 1024 columns) and, every time, the
  whole 1 × 1024 row of logarithms; its body stores ONE block of 1024 × 1024 numbers, and that block is written back
  to the same rows of the result. The row of logarithms is the host logarithm of the primes, re-laid from a flat
  array of 1024 to a 1 × 1024 array before the grid starts, so its entry (0, q) is the logarithm of prime q.

  Inside the body every operation is elementwise except the spreading of the 1 × 1024 row over the block's 1024
  rows: entry (p, q) of the spread block is entry (0, q) of the row. Hence entry (p, q) of the stored block is the
  one-element update of entry (p, q) of the block of x and entry (0, q) of the row; and, through the two blocks'
  positions, the update of x's entry (1024·t + p, q) and the logarithm of prime q — entry (1024·t + p, q) of the
  whole-array update.
-/
import proofs.«158199_j34016140985088_1_alg».proof.Proof.Gen.KernelIdeal.Frame
import proofs.«158199_j34016140985088_1_alg».proof.Proof.Update
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.BlockValue

open Cert.KernelIdeal Cert.KernelIdeal.Gen Cert.SigmoidSign
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The body's block -/

/-- A 1 × 1024 row (re-laid to its own shape, which changes nothing) spread over 1024 rows: entry (p, q) is the
    row's entry (0, q). -/
theorem row_spread (P1 : Vec Ideal S1x1024 .f32) (hc : S1x1024.ShapeCasts S1x1024) (hb : S1x1024.Broadcasts S1024x1024)
    (p q : Fin 1024) :
    broadcastTo S1024x1024 (shapeCast S1x1024 P1 hc) hb (ix2 p q) = P1 (ix2 0 q) := by
  rw [shapeCast_self]
  refine broadcastTo_apply P1 hb (ix2 p q) (ix2 0 q) fun a => ?_
  match a with
  | ⟨0, _⟩ => show (0 : Nat) = if (1 : Nat) = 1 then 0 else _; rw [if_pos rfl]
  | ⟨1, _⟩ => show q.val = if (1024 : Nat) = 1 then 0 else _; rw [if_neg (by decide)]; rfl

/-- Entry (p, q) of the stored value: the update of the first load's entry (p, q) and the second load's entry
    (0, q). Every operation but the spreading acts entry by entry, so only the spread row is read by a lemma. -/
theorem pay_apply (P0 : Vec Ideal S1024x1024 .f32) (P1 : Vec Ideal S1x1024 .f32) (p q : Fin 1024) :
    k0_pay1 (F := Ideal) P0 P1 (ix2 p q) = upd (P0 (ix2 p q)) (P1 (ix2 0 q)) :=
  congrArg (upd (P0 (ix2 p q))) (row_spread P1 shapeCasts_S1x1024_S1x1024 broadcasts_S1x1024_S1024x1024 p q)

/-- Entry (p, q) of what the body leaves in the output's buffer, from the two input blocks: the body loads both
    whole and stores over the whole buffer. -/
theorem out_apply (x0 : Vec Ideal S1024x1024 .f32) (x1 : Vec Ideal S1x1024 .f32) (p q : Fin 1024) :
    out0_2 (F := Ideal) x0 x1 (ix2 p q) = upd (x0 (ix2 p q)) (x1 (ix2 0 q)) := by
  unfold out0_2
  rw [View.canon_unit_zero hz]
  simp only [View.ld_unit_zero (S := S1024x1024) hz, View.ld_unit_zero (S := S1x1024) hz]
  exact pay_apply x0 x1 p q

/-! ## The input blocks -/

/-- Where the three windows' blocks sit at point t: the blocks of x and of the result at block-row t, the row of
    logarithms always at its only block (decided over the 64 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of x's block at point t is x's entry (1024·t + p, q). -/
theorem xblk_apply (c : Dev nD) (t : Fin cfg0.N) (p q : Fin 1024) (k : S65536x1024.Idx)
    (hk0 : (k 0).val = t.val * 1024 + p.val) (hk1 : (k 1).val = q.val) :
    (iblk m c 0 t : Vec Ideal S1024x1024 .f32) (ix2 p q)
      = (m ((c : Thread nD τ).loc main_arg0) : S65536x1024.Idx → EReal) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 1024 + 1 * p.val = (k 0).val; rw [e0, hk0]; omega
  | ⟨1, _⟩ => show win0_0.index t 1 * 1024 + 1 * q.val = (k 1).val; rw [e1, hk1]; omega

/-- The row of logarithms as the grid finds it: the host logarithm of the primes, re-laid to 1 × 1024. -/
theorem row_array (c : Dev nD) :
    (V m c main_v1 : S1x1024.Idx → EReal)
      = shapeCast S1x1024 (Host.log (F := Ideal) (s := S1024) (φ := .f32) (m ((c : Thread nD τ).loc main_arg1))) shapeCasts_S1024_S1x1024 := by
  dsimp only [Gen.V, Gen.hostOps0]; after_results; rfl

/-- Entry (0, q) of the row's block (at any point: it is always the whole row) is the logarithm of prime q. -/
theorem rowblk_apply (c : Dev nD) (t : Fin cfg0.N) (q : Fin 1024) :
    (iblk m c 1 t : Vec Ideal S1x1024 .f32) (ix2 0 q)
      = Ideal.log ((m ((c : Thread nD τ).loc main_arg1) : S1024.Idx → EReal) (ix1 q)) := by
  obtain ⟨-, -, e2, e3, -⟩ := idx_facts t
  unfold iblk
  rw [View.read_apply]
  show V m c main_v1 _ = _
  rw [row_array]
  refine (shapeCast_apply _ _ _ (ix1 q) ?_).trans rfl
  rw [Shape.rowMajor_val_one, Shape.rowMajor_val_two]
  show q.val = (win0_1.index t 0 * 1 + 1 * 0) * 1024 + (win0_1.index t 1 * 1024 + 1 * q.val)
  rw [e2, e3]; omega

end Cert.KernelIdeal.BlockValue

end
-- ==== Proof.KernelArray.lean ====
/-
  From the 64 blocks to the whole result array.

  Point t writes back a block of 1024 × 1024 numbers to rows 1024·t … 1024·t + 1023 of the result, and that block
  is the same rows of the whole-array update G of the arguments: its entry (p, q) is the update of x's entry
  (1024·t + p, q) and the logarithm of prime q. Row r of the result lies in the block of point r / 1024, and every
  point writes back, so the 64 blocks cover the array; an array every index of which some point wrote with G's value
  there is G. The run of the program then ends with the result array at G of the argument arrays, which it leaves
  unchanged: x is only staged, never written back, and no window touches the primes.
-/
import proofs.«158199_j34016140985088_1_alg».proof.Proof.KernelBlock

noncomputable section

namespace Cert.KernelIdeal.BlockValue

open Cert.KernelIdeal Cert.KernelIdeal.Gen Cert.SigmoidSign
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The whole-array update of the two arguments as launched, on core c. -/
abbrev result (c : Dev nD) : Buf (Elt Ideal) ((c : Thread nD τ).loc main_v2) :=
  G (m ((c : Thread nD τ).loc main_arg0)) (m ((c : Thread nD τ).loc main_arg1))

/-- What point t writes back is block t of the whole-array update. -/
theorem flushed_eq (c : Dev nD) (t : Fin cfg0.N) :
    (dats m 0 c).flushed 2 t = ((cfg0.win 2).blk t).view.read (Elt Ideal) (result m c) := by
  obtain ⟨-, -, -, -, e4, e5⟩ := idx_facts t
  show (cfg0.win 2).cut (grid0.coords t) ((dats m 0 c).after 2 t) = _
  rw [after0_2]
  funext j
  obtain ⟨p, q, rfl⟩ : ∃ (p q : Fin 1024), j = ix2 p q := ⟨j 0, j 1, eq_ix2 j⟩
  show out0_2 (iblk m c 0 t) (iblk m c 1 t) (ix2 p q) = result m c (((cfg0.win 2).blk t).view.emb (ix2 p q))
  refine (out_apply (iblk m c 0 t) (iblk m c 1 t) p q).trans ?_
  have hcol : (((cfg0.win 2).blk t).view.emb (ix2 p q)) 1 = q :=
    Fin.ext (by show win0_2.index t 1 * 1024 + 1 * q.val = q.val; rw [e5]; omega)
  show upd _ _ = upd _ (Ideal.log ((m ((c : Thread nD τ).loc main_arg1) : S1024.Idx → EReal)
    (ix1 ((((cfg0.win 2).blk t).view.emb (ix2 p q)) 1))))
  rw [hcol]
  exact congrArg₂ upd
    (xblk_apply m c t p q _ (by show win0_2.index t 0 * 1024 + 1 * p.val = _; rw [e4]; omega)
      (by show win0_2.index t 1 * 1024 + 1 * q.val = _; rw [e5]; omega))
    (rowblk_apply m c t q)

/-- An index of the result is in point t's block iff each coordinate is in the block's range on its axis. -/
theorem mem_blk (t : Fin cfg0.N) (i : S65536x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the result is in the block of the point its row divided by 1024 names, and that point writes back. -/
theorem cover (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : cfg0.N = 64 := N_0
  have hlt : (i 0).val / 1024 < cfg0.N := by rw [hN]; omega
  obtain ⟨-, -, -, -, e4, e5⟩ := idx_facts ⟨(i 0).val / 1024, hlt⟩
  have e4' : win0_2.index ⟨(i 0).val / 1024, hlt⟩ 0 = (i 0).val / 1024 := e4
  refine ⟨⟨(i 0).val / 1024, hlt⟩, flush0_2 _, ?_⟩
  rw [mem_blk]
  intro a
  match a with
  | ⟨0, _⟩ =>
    show win0_2.index ⟨(i 0).val / 1024, hlt⟩ 0 * 1024 ≤ (i 0).val
      ∧ (i 0).val < win0_2.index ⟨(i 0).val / 1024, hlt⟩ 0 * 1024 + 1024
    rw [e4']; omega
  | ⟨1, _⟩ =>
    show win0_2.index ⟨(i 0).val / 1024, hlt⟩ 1 * 1024 ≤ (i 1).val
      ∧ (i 1).val < win0_2.index ⟨(i 0).val / 1024, hlt⟩ 1 * 1024 + 1024
    rw [e5]; omega

/-- The result array after the run is the whole-array update of the arguments. -/
theorem final (c : Dev nD) : (dats m 0 c).arrAt 2 cfg0.N = result m c :=
  (dats m 0 c).arrAt_eq_of_cover 2 (result m c) (fun t _ => flushed_eq m c t) cover

/-- Every weakly fair execution of the program ends, with the result array at the whole-array update of the arguments
    as launched and the two arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.BlockValue

end
-- ==== Proof.lean ====
/-
  The kernel and its reference compute the same array on the extended reals.

  Both take x (65536 × 1024) and the 1024 primes p and return, entry by entry,

      x − c₀.₀₁ · ((((s · (c₁ − s)) · c₁₀₀) · sgn x) · log p_c),      s = σ(c₁₀₀ · (|x| − c₀.₁)),

  with the same single-precision words for the constants and the products taken in the same order. They differ in
  three places, none of which changes a value:

  * the sigmoid is the logistic function in the kernel and the quotient 1 / (1 + e^(−z)) in the reference: one
    function of the extended reals (Proof/SigmoidSign.lean);
  * the sign is selected in the kernel (x itself where |x| > 0 fails, else −1 or 1 by x < 0) and is the sign function
    in the reference: equal at every extended real, zero and the infinities included (Proof/SigmoidSign.lean);
  * the logarithms of the primes reach entry (r, c) through a re-laying to a 1 × 1024 row that each block of 1024 rows
    reads whole and spreads over its rows (kernel: Proof/KernelBlock.lean), or through two broadcasts (reference:
    Proof/RefUpdate.lean): either way entry (r, c) meets the logarithm of prime c.

  The kernel works block by block: grid point t writes rows 1024·t … 1024·t + 1023 of the result, and the 64 blocks
  cover it (Proof/KernelArray.lean). No step uses that the inputs are finite: the two pointwise identities hold at the
  infinities too, and nothing is regrouped or cancelled.

  The three frame claims are the generated frames of the two kernel programs and the reference's generated run with its
  value dropped; the one rewrite the idealized kernel carries (1.0 with x's sign bit read as a selection between −1 and
  1 on x < 0) is the library's statement of that rule at the block's shape.
-/
import proofs.«158199_j34016140985088_1_alg».proof.Defs
import proofs.«158199_j34016140985088_1_alg».proof.Proof.Gen.Kernel
import proofs.«158199_j34016140985088_1_alg».proof.Proof.Gen.Kernel.Skeleton
import proofs.«158199_j34016140985088_1_alg».proof.Proof.Gen.Kernel.Launch
import proofs.«158199_j34016140985088_1_alg».proof.Proof.Gen.Kernel.Points
import proofs.«158199_j34016140985088_1_alg».proof.Proof.Gen.Kernel.Frame
import proofs.«158199_j34016140985088_1_alg».proof.Proof.Gen.KernelIdeal
import proofs.«158199_j34016140985088_1_alg».proof.Proof.Gen.KernelIdeal.Skeleton
import proofs.«158199_j34016140985088_1_alg».proof.Proof.Gen.KernelIdeal.Launch
import proofs.«158199_j34016140985088_1_alg».proof.Proof.Gen.KernelIdeal.Points
import proofs.«158199_j34016140985088_1_alg».proof.Proof.Gen.KernelIdeal.Frame
import proofs.«158199_j34016140985088_1_alg».proof.Proof.Gen.ReferenceIdeal
import proofs.«158199_j34016140985088_1_alg».proof.Proof.Gen.ReferenceIdeal.Run
import proofs.«158199_j34016140985088_1_alg».proof.Proof.Gen.ReferenceIdeal.Read
import proofs.«158199_j34016140985088_1_alg».proof.Proof.Gen.Pre_finite_inputs
import Idealize.ShloMosaic.Adequacy
import Idealize.ShloMosaic.Init
import proofs.«158199_j34016140985088_1_alg».proof.Proof.SigmoidSign
import proofs.«158199_j34016140985088_1_alg».proof.Proof.Update
import proofs.«158199_j34016140985088_1_alg».proof.Proof.RefUpdate
import proofs.«158199_j34016140985088_1_alg».proof.Proof.KernelBlock
import proofs.«158199_j34016140985088_1_alg».proof.Proof.KernelArray

noncomputable section

namespace Cert.Proof

open Idealize.ShloMosaic Idealize.SL.Sem Cert.Kernel

/-- The word-level kernel runs and leaves its arguments unchanged: its generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged: its generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the value forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel's one rewrite: 1.0 carrying x's sign bit, read as the choice of −1 or 1 by x < 0. -/
theorem preserves : Cert.preserves_Kernel_KernelIdeal :=
  IdealRules.sign_bit.statement Cert.KernelIdeal.S1024x1024 .f32

/-- From memories that agree on x and the primes both programs end with the whole-array update of those arguments in
    their result arrays: the kernel by its blocks, the reference by its chain of elementwise operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.val_eq_update, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
